-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S8x512x512 .f32) (main_arg1 : FVec F S8x64x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x512x512 : Shape := ⟨3, ![8, 512, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x512 : Shape := ⟨2, ![1, 512]⟩
abbrev S512x500 : Shape := ⟨2, ![512, 500]⟩
abbrev S1x500 : Shape := ⟨2, ![1, 500]⟩
abbrev S8x512x64x500 : Shape := ⟨4, ![8, 512, 64, 500]⟩
abbrev S1x64x512 : Shape := ⟨3, ![1, 64, 512]⟩
abbrev S1x64x64x500 : Shape := ⟨4, ![1, 64, 64, 500]⟩
abbrev S64x512 : Shape := ⟨2, ![64, 512]⟩
abbrev S1x32x512 : Shape := ⟨3, ![1, 32, 512]⟩
abbrev S32x512 : Shape := ⟨2, ![32, 512]⟩
abbrev S32x1x512 : Shape := ⟨3, ![32, 1, 512]⟩
abbrev S32x64x512 : Shape := ⟨3, ![32, 64, 512]⟩
abbrev S2048x512 : Shape := ⟨2, ![2048, 512]⟩
abbrev S2048x500 : Shape := ⟨2, ![2048, 500]⟩
abbrev S32x64x500 : Shape := ⟨3, ![32, 64, 500]⟩
abbrev S1x32x64x500 : Shape := ⟨4, ![1, 32, 64, 500]⟩

abbrev nBuf : Space → Nat
  | .hbm => 26
  | .vmem => 10
  | .smem => 0
  | _ => 0

abbrev bufTy : (tb : Table) → Fin (tcTables nBuf tb) → BufTy
  | .hbm, ⟨0, _⟩ => ⟨S8x512x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S1x512, .f32⟩
  | .hbm, ⟨14, _⟩ => ⟨S512x512, .f32⟩
  | .hbm, ⟨15, _⟩ => ⟨S512x512, .f32⟩
  | .hbm, ⟨16, _⟩ => ⟨S8x64x512, .f32⟩
  | .hbm, ⟨17, _⟩ => ⟨S8x64x512, .bf16⟩
  | .hbm, ⟨18, _⟩ => ⟨S8x512x512, .bf16⟩
  | .hbm, ⟨19, _⟩ => ⟨S512x512, .f32⟩
  | .hbm, ⟨20, _⟩ => ⟨S512x512, .bf16⟩
  | .hbm, ⟨21, _⟩ => ⟨S512x500, .f32⟩
  | .hbm, ⟨22, _⟩ => ⟨S512x500, .bf16⟩
  | .hbm, ⟨23, _⟩ => ⟨S1x512, .f32⟩
  | .hbm, ⟨24, _⟩ => ⟨S1x500, .f32⟩
  | .hbm, ⟨25, _⟩ => ⟨S8x512x64x500, .f32⟩
  | .local _ .vmem, ⟨0, _⟩ => ⟨S1x64x512, .bf16⟩
  | .local _ .vmem, ⟨1, _⟩ => ⟨S1x64x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x512, .bf16⟩
  | .local _ .vmem, ⟨5, _⟩ => ⟨S1x512, .f32⟩
  | .local _ .vmem, ⟨6, _⟩ => ⟨S512x500, .bf16⟩
  | .local _ .vmem, ⟨7, _⟩ => ⟨S1x500, .f32⟩
  | .local _ .vmem, ⟨8, _⟩ => ⟨S1x64x64x500, .f32⟩
  | .local _ .vmem, ⟨9, _⟩ => ⟨S1x64x64x500, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c2_i32 : BitVec 32 := 2#32
  let v10 : BitVec 32 := Scalar.addi c0_i32 c2_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v11 : BitVec 32 := Scalar.muli arg9 c32_i32
  v11
def k0_off1 (k0_t1 : Fin k0_t1_loop.trips) : Fin 3 → Nat :=
  let c0_11 : Index := 0#32
  let c0_i32 : BitVec 32 := 0#32
  let c1_i32 : BitVec 32 := 1#32
  let arg9 : BitVec 32 := Scf.iv c0_i32 c1_i32 k0_t1
  let c32_i32 : BitVec 32 := 32#32
  let v11 : BitVec 32 := Scalar.muli arg9 c32_i32
  let v12 : BitVec 32 := v11
  let v13 : Index := Scalar.indexCast v12
  let c0_12 : Index := 0#32
  ![0, v13.toNat, 0]
def k0_off2 (k0_t1 : Fin k0_t1_loop.trips) : Fin 4 → Nat :=
  let c0_14 : Index := 0#32
  let c0_i32 : BitVec 32 := 0#32
  let c1_i32 : BitVec 32 := 1#32
  let arg9 : BitVec 32 := Scf.iv c0_i32 c1_i32 k0_t1
  let c32_i32 : BitVec 32 := 32#32
  let v11 : BitVec 32 := Scalar.muli arg9 c32_i32
  let v12 : BitVec 32 := v11
  let v32 : Index := Scalar.indexCast v12
  let c0_15 : Index := 0#32
  let c0_16 : Index := 0#32
  ![0, v32.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x500 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x64x500 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S512x512_S512x512_1_0 : S512x512.Transposes [1, 0] S512x512
  bitsLt_bf16_f32 : FTy.bits .bf16 < FTy.bits .f32
  shapeCasts_S8x64x512_S512x512 : S8x64x512.ShapeCasts S512x512
  shapeCasts_S512_S1x512 : S512.ShapeCasts S1x512
  bcast_S1x512_S512x512_0_1 : S1x512.BroadcastsInDim S512x512 (![0, 1] : Fin 2 → Fin S512x512.rank)
  shapeCasts_S512x512_S8x64x512 : S512x512.ShapeCasts S8x64x512
  transposes_S500x512_S512x500_1_0 : S500x512.Transposes [1, 0] S512x500
  shapeCasts_S500_S1x500 : S500.ShapeCasts S1x500
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x500_S512x500_0_0 : ∀ a, (![0, 0] : Fin 2 → Nat) a + S512x500.size a ≤ S512x500.size a
  h_S512x500 : 0 < S512x500.numel
  shapeCasts_S512x500_S512x500 : S512x500.ShapeCasts S512x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  h_S1x32x512 : 0 < S1x32x512.numel
  shapeCasts_S1x32x512_S32x512 : S1x32x512.ShapeCasts S32x512
  broadcasts_S1x512_S32x512 : S1x512.Broadcasts S32x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  broadcasts_S1x500_S2048x500 : S1x500.Broadcasts S2048x500
  shapeCasts_S2048x500_S32x64x500 : S2048x500.ShapeCasts S32x64x500
  h_S1x32x64x500 : 0 < S1x32x64x500.numel
  shapeCasts_S1x32x64x500_S32x64x500 : S1x32x64x500.ShapeCasts S32x64x500
  shapeCasts_S32x64x500_S1x32x64x500 : S32x64x500.ShapeCasts S1x32x64x500
  dot_S512x512_S512x512_S512x512_1_0_0_1_n_n_wf : DotDims.WF S512x512 S512x512 S512x512 [1] [0] [0] [1] [] []
  dot_S32x512_S512x512_S32x512_1_0_0_1_n_n_wf : DotDims.WF S32x512 S512x512 S32x512 [1] [0] [0] [1] [] []
  dot_S2048x512_S512x500_S2048x500_1_0_0_1_n_n_wf : DotDims.WF S2048x512 S512x500 S2048x500 [1] [0] [0] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x512.size a ≤ S1x64x512.size a
  k0_off2_inb : ∀ k0_t1 : Fin k0_t1_loop.trips, ∀ a, (k0_off2 k0_t1) a + S1x32x64x500.size a ≤ S1x64x64x500.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x512x512.size a
  hwx0_0 : ∀ i : grid0.Coords, EltTy.bits .bf16 = 32 ∨ (Rect.block (s := S8x512x512) S1x64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .bf16 = 32 ∨ (Rect.block (s := S8x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x500.size a ≤ S512x500.size a
  hwx0_4 : ∀ i : grid0.Coords, EltTy.bits .bf16 = 32 ∨ (Rect.block (s := S512x500) S512x500.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x500.size a ≤ S1x500.size a
  hwx0_5 : ∀ i : grid0.Coords, EltTy.bits .f32 = 32 ∨ (Rect.block (s := S1x500) S1x500.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64x500.size a ≤ S8x512x64x500.size a
  hwx0_6 : ∀ i : grid0.Coords, EltTy.bits .f32 = 32 ∨ (Rect.block (s := S8x512x64x500) S1x64x64x500.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S2048x512_S512x500_S2048x500_1_0_0_1_n_n : DotDims S2048x512 S512x500 S2048x500 where
  lhsContracting := [1]
  rhsContracting := [0]
  lhsNonContracting := [0]
  rhsNonContracting := [1]
  lhsBatch := []
  rhsBatch := []
  wf := dot_S2048x512_S512x500_S2048x500_1_0_0_1_n_n_wf

abbrev win0_0 : Pipeline.Window sig grid0 :=
  Pipeline.Window.ofSpec (Memref.whole main_v10) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64x64x500.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8x64x512 : Shape := ⟨3, ![8, 64, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S8x512x1x512 : Shape := ⟨4, ![8, 512, 1, 512]⟩
abbrev S8x1x64x512 : Shape := ⟨4, ![8, 1, 64, 512]⟩
abbrev S8x512x64x512 : Shape := ⟨4, ![8, 512, 64, 512]⟩
abbrev S8x512x64x500 : Shape := ⟨4, ![8, 512, 64, 500]⟩
abbrev S1x1x1x500 : Shape := ⟨4, ![1, 1, 1, 500]⟩

abbrev nBuf : Space → Nat
  | .hbm => 26
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x512x512, .f32⟩
  | .hbm, ⟨9, _⟩ => ⟨S1x1x512, .f32⟩
  | .hbm, ⟨10, _⟩ => ⟨S8x512x512, .f32⟩
  | .hbm, ⟨11, _⟩ => ⟨S8x512x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x512x1x512, .f32⟩
  | .hbm, ⟨17, _⟩ => ⟨S8x1x64x512, .f32⟩
  | .hbm, ⟨18, _⟩ => ⟨S8x512x64x512, .f32⟩
  | .hbm, ⟨19, _⟩ => ⟨S8x512x64x512, .f32⟩
  | .hbm, ⟨20, _⟩ => ⟨S8x512x64x512, .f32⟩
  | .hbm, ⟨21, _⟩ => ⟨S8x512x64x512, .f32⟩
  | .hbm, ⟨22, _⟩ => ⟨S8x512x64x500, .f32⟩
  | .hbm, ⟨23, _⟩ => ⟨S1x1x1x500, .f32⟩
  | .hbm, ⟨24, _⟩ => ⟨S8x512x64x500, .f32⟩
  | .hbm, ⟨25, _⟩ => ⟨S8x512x64x500, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x512x512_0_1_2 : S1x1x512.BroadcastsInDim S8x512x512 (![0, 1, 2] : Fin 3 → Fin S8x512x512.rank)
  bcast_S1x1x512_S8x64x512_0_1_2 : S1x1x512.BroadcastsInDim S8x64x512 (![0, 1, 2] : Fin 3 → Fin S8x64x512.rank)
  bcast_S8x512x512_S8x512x1x512_0_1_3 : S8x512x512.BroadcastsInDim S8x512x1x512 (![0, 1, 3] : Fin 3 → Fin S8x512x1x512.rank)
  bcast_S8x64x512_S8x1x64x512_0_2_3 : S8x64x512.BroadcastsInDim S8x1x64x512 (![0, 2, 3] : Fin 3 → Fin S8x1x64x512.rank)
  bcast_S8x512x1x512_S8x512x64x512_0_1_2_3 : S8x512x1x512.BroadcastsInDim S8x512x64x512 (![0, 1, 2, 3] : Fin 4 → Fin S8x512x64x512.rank)
  bcast_S8x1x64x512_S8x512x64x512_0_1_2_3 : S8x1x64x512.BroadcastsInDim S8x512x64x512 (![0, 1, 2, 3] : Fin 4 → Fin S8x512x64x512.rank)
  bcast_S500_S1x1x1x500_3 : S500.BroadcastsInDim S1x1x1x500 (![3] : Fin 1 → Fin S1x1x1x500.rank)
  bcast_S1x1x1x500_S8x512x64x500_0_1_2_3 : S1x1x1x500.BroadcastsInDim S8x512x64x500 (![0, 1, 2, 3] : Fin 4 → Fin S8x512x64x500.rank)
  dot_S8x512x512_S512x512_S8x512x512_2_1_01_0_n_n_wf : DotDims.WF S8x512x512 S512x512 S8x512x512 [2] [1] [0, 1] [0] [] []
  dot_S8x64x512_S512x512_S8x64x512_2_1_01_0_n_n_wf : DotDims.WF S8x64x512 S512x512 S8x64x512 [2] [1] [0, 1] [0] [] []
  dot_S8x512x64x512_S500x512_S8x512x64x500_3_1_012_0_n_n_wf : DotDims.WF S8x512x64x512 S500x512 S8x512x64x500 [3] [1] [0, 1, 2] [0] [] []

variable [Facts₀]

def dot_S8x512x512_S512x512_S8x512x512_2_1_01_0_n_n : DotDims S8x512x512 S512x512 S8x512x512 where
  lhsContracting := [2]
  rhsContracting := [1]
  lhsNonContracting := [0, 1]
  rhsNonContracting := [0]
  lhsBatch := []
  rhsBatch := []
  wf := dot_S8x512x512_S512x512_S8x512x512_2_1_01_0_n_n_wf
def dot_S8x64x512_S512x512_S8x64x512_2_1_01_0_n_n : DotDims S8x64x512 S512x512 S8x64x512 where
  lhsContracting := [2]
  rhsContracting := [1]
  lhsNonContracting := [0, 1]
  rhsNonContracting := [0]
  lhsBatch := []
  rhsBatch := []
  wf := dot_S8x64x512_S512x512_S8x64x512_2_1_01_0_n_n_wf
def dot_S8x512x64x512_S500x512_S8x512x64x500_3_1_012_0_n_n : DotDims S8x512x64x512 S500x512 S8x512x64x500 where
  lhsContracting := [3]
  rhsContracting := [1]
  lhsNonContracting := [0, 1, 2]
  rhsNonContracting := [0]
  lhsBatch := []
  rhsBatch := []
  wf := dot_S8x512x64x512_S500x512_S8x512x64x500_3_1_012_0_n_n_wf

class Facts : Prop extends Facts₀ where

variable [Facts]
-- ==== Proof.JoinerSpec.lean ====
/-
  The joiner network as ONE function of its eight argument arrays, on the extended reals.

  With x the encoder states [8, 512, 512], y the decoder states [8, 64, 512], We, be the encoder projection
  [512, 512], [512], Wd, bd the decoder projection, Wo [500, 512] and bo [500] the output layer:

    enc(n, t, j) = (Σ_e x(n, t, e) · We(j, e)) + be(j)
    dec(n, u, j) = (Σ_d y(n, u, d) · Wd(j, d)) + bd(j)
    out(n, t, u, v) = (Σ_j tanh(enc(n, t, j) + dec(n, u, j)) · Wo(v, j)) + bo(v)

  Every sum runs over one coordinate in its natural order with the activation on the left of each product, which is
  how both programs form it; no law of the extended reals beyond reading each operation at an index is needed to
  identify either program with this function, so finiteness of the inputs is never used.
-/
import Idealize.ShloMosaic.PureOps.Ideal
import Idealize.ShloMosaic.Lib.ValueIdx

noncomputable section

namespace Joiner

open Idealize.ShloMosaic Idealize.ShloMosaic.ValueIdx

/-- The encoder projection with its bias, at batch n, frame t, joint coordinate j. -/
def encProj (x : (⟨3, ![8, 512, 512]⟩ : Shape).Idx → EReal) (We : (⟨2, ![512, 512]⟩ : Shape).Idx → EReal)
    (be : (⟨1, ![512]⟩ : Shape).Idx → EReal) (n : Fin 8) (t : Fin 512) (j : Fin 512) : EReal :=
  (∑ e : Fin 512, x (ix3 n t e) * We (ix2 j e)) + be (ix1 j)

/-- The decoder projection with its bias, at batch n, label position u, joint coordinate j. -/
def decProj (y : (⟨3, ![8, 64, 512]⟩ : Shape).Idx → EReal) (Wd : (⟨2, ![512, 512]⟩ : Shape).Idx → EReal)
    (bd : (⟨1, ![512]⟩ : Shape).Idx → EReal) (n : Fin 8) (u : Fin 64) (j : Fin 512) : EReal :=
  (∑ d : Fin 512, y (ix3 n u d) * Wd (ix2 j d)) + bd (ix1 j)

/-- The output layer applied to the tanh of the two projections' sum, at (n, t, u) and vocabulary entry v. -/
def logit (x : (⟨3, ![8, 512, 512]⟩ : Shape).Idx → EReal) (y : (⟨3, ![8, 64, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal)
    (n : Fin 8) (t : Fin 512) (u : Fin 64) (v : Fin 500) : EReal :=
  (∑ j : Fin 512, Ideal.tanh (encProj x We be n t j + decProj y Wd bd n u j) * Wo (ix2 v j)) + bo (ix1 v)

/-- The whole result array [8, 512, 64, 500], index by index. -/
def G (x : (⟨3, ![8, 512, 512]⟩ : Shape).Idx → EReal) (y : (⟨3, ![8, 64, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal) :
    (⟨4, ![8, 512, 64, 500]⟩ : Shape).Idx → EReal :=
  fun i => logit x y We be Wd bd Wo bo (i 0) (i 1) (i 2) (i 3)

theorem G_apply (x : (⟨3, ![8, 512, 512]⟩ : Shape).Idx → EReal) (y : (⟨3, ![8, 64, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal)
    (n : Fin 8) (t : Fin 512) (u : Fin 64) (v : Fin 500) :
    G x y We be Wd bd Wo bo (ix4 n t u v) = logit x y We be Wd bd Wo bo n t u v := rfl

end Joiner

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«174205_j79328045957280_2_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibMergeAxes.lean ====
/-
  Layout facts around a product whose leading two axes are merged into one, each stated at an index given by
  coordinates, over any element type and any sizes:

  * an `[a, b, c]` array read as `[n, c]` with n = a * b (rows merged), and an `[n, 1]` column read as `[a, b, 1]`
    (rows split again): row r = p * b + q of the merged array is row (p, q) of the other;
  * an `[a, 1, c]` array read as `[a, c]` (a unit middle axis dropped);
  * a `[1, b, 1]` array repeated along a leading axis of length a;
  * at the extended reals, a sum along the middle axis of an `[a, b, c]` array as a sum over its coordinate.
-/
import Idealize.ShloMosaic.Lib.ValueIdx
import Idealize.ShloMosaic.Lib.Pipeline.Value
import Idealize.ShloMosaic.PureOps.Ideal.Laws

noncomputable section

namespace Cert.LibMergeAxes

open Idealize.ShloMosaic Idealize.ShloMosaic.ValueIdx

section Layout
variable {α : Type}

/-- An `[a, b, c]` array cast to `[n, c]` reads, at `(r, u)` with `r = p * b + q`, the operand at `(p, q, u)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (u : Fin c) (r : Fin n)
    (hr : r.val = p.val * b + q.val) : shapeCast ⟨2, ![n, c]⟩ x h (ix2 r u) = x (ix3 p q u) :=
  shapeCast_apply x h _ _ (by
    rw [Shape.rowMajor_val_three, Shape.rowMajor_val_two]
    show (p.val * b + q.val) * c + u.val = r.val * c + u.val
    rw [hr])

/-- An `[n, 1]` column cast to `[a, b, 1]` reads, at `(p, q, z)`, the column's entry in row `r = p * b + q`. -/
theorem shapeCast_n1_ab1_apply {a b n : ℕ} (x : (⟨2, ![n, 1]⟩ : Shape).Idx → α)
    (h : (⟨2, ![n, 1]⟩ : Shape).ShapeCasts ⟨3, ![a, b, 1]⟩) (p : Fin a) (q : Fin b) (z z' : Fin 1) (r : Fin n)
    (hr : r.val = p.val * b + q.val) : shapeCast ⟨3, ![a, b, 1]⟩ x h (ix3 p q z) = x (ix2 r z') :=
  shapeCast_apply x h _ _ (by
    have hz : z.val = 0 := by omega
    have hz' : z'.val = 0 := by omega
    rw [Shape.rowMajor_val_three, Shape.rowMajor_val_two]
    show r.val * 1 + z'.val = (p.val * b + q.val) * 1 + z.val
    rw [hr, hz, hz'])

/-- An `[a, 1, c]` array cast to `[a, c]` reads, at `(p, u)`, the operand at `(p, 0, u)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (u : Fin c) :
    shapeCast ⟨2, ![a, c]⟩ x h (ix2 p u) = x (ix3 p (0 : Fin 1) u) :=
  shapeCast_apply x h _ _ (by
    rw [Shape.rowMajor_val_three, Shape.rowMajor_val_two]
    show (p.val * 1 + 0) * c + u.val = p.val * c + u.val
    rw [Nat.mul_one, Nat.add_zero])

/-- A `[1, b, 1]` array broadcast to `[a, b, 1]` reads, at `(p, q, z)`, the operand at `(0, q, 0)`. -/
theorem broadcastTo_1b1_ab1_apply {a b : ℕ} (x : (⟨3, ![1, b, 1]⟩ : Shape).Idx → α)
    (h : (⟨3, ![1, b, 1]⟩ : Shape).Broadcasts ⟨3, ![a, b, 1]⟩) (p : Fin a) (q : Fin b) (z : Fin 1) :
    broadcastTo ⟨3, ![a, b, 1]⟩ x h (ix3 p q z) = x (ix3 (0 : Fin 1) q (0 : Fin 1)) := by
  refine broadcastTo_apply x h (ix3 p q z) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

end Layout

section MiddleSum

/-- The index a reduction of the middle axis inserts: over `(p, z)` with coordinate `k` it is `(p, k, z)`. -/
theorem lift3_axis1 {n0 n1 n2 : ℕ} (h : (⟨3, ![n0, n1, n2]⟩ : Shape).Reduces [1] ⟨2, ![n0, n2]⟩)
    (p : Fin n0) (z : Fin n2) (k : Fin n1) : h.lift (ix2 p z) k = ix3 p k z :=
  funext fun a => Fin.ext (by
    match a with
    | ⟨0, _⟩ => rfl
    | ⟨1, _⟩ => rfl
    | ⟨2, _⟩ => rfl)

/-- A sum along the middle axis, read at `(p, z)`, is the sum over the middle coordinate. -/
theorem middleSum3_apply {n0 n1 n2 : ℕ} (x : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = FKind.add.neutral .f32 hφ) (p : Fin n0) (z : Fin n2) :
    multiReduction (F := Ideal) .add [1] ⟨2, ![n0, n2]⟩ x 0x00000000#32 h hφ hacc (ix2 p z) = ∑ k : Fin n1, x (ix3 p k z) :=
  (Ideal.multiReduction_add_single x 0x00000000#32 h hφ hacc (ix2 p z)).trans
    (Finset.sum_congr rfl fun k _ => congrArg x (lift3_axis1 h p z k))

end MiddleSum

end Cert.LibMergeAxes

end
-- ==== Proof.LibSplitAxes.lean ====
/-
  Layout steps around a rank-3 array whose leading two axes stand for one merged row axis, each read at an index given
  by coordinates, over any element type and any sizes:

  * an `[a, c]` array read as `[a, 1, c]` (a unit middle axis inserted);
  * an `[n, c]` array read as `[a, b, c]` with n = a * b (rows split): entry (p, q, u) is row r = p * b + q at u
    — the converse of reading `[a, b, c]` as `[n, c]`;
  * an `[a, 1, c]` array repeated along its middle axis to `[a, b, c]`;
  * a `[1, b, c]` array repeated along a leading axis to `[a, b, c]`.
-/
import Idealize.ShloMosaic.Lib.ValueIdx
import Idealize.ShloMosaic.Lib.Pipeline.Value

noncomputable section

namespace Cert.LibSplitAxes

open Idealize.ShloMosaic Idealize.ShloMosaic.ValueIdx

variable {α : Type}

/-- An `[a, c]` array cast to `[a, 1, c]` reads, at `(p, z, u)`, the operand at `(p, u)`. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (u : Fin c) :
    shapeCast ⟨3, ![a, 1, c]⟩ x h (ix3 p z u) = x (ix2 p u) :=
  shapeCast_apply x h _ _ (by
    have hz : z.val = 0 := by omega
    rw [Shape.rowMajor_val_three, Shape.rowMajor_val_two]
    show p.val * c + u.val = (p.val * 1 + z.val) * c + u.val
    rw [hz, Nat.mul_one, Nat.add_zero])

/-- An `[n, c]` array cast to `[a, b, c]` with n = a * b reads, at `(p, q, u)`, the operand's row `r = p * b + q` at `u`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (u : Fin c) (r : Fin n)
    (hr : r.val = p.val * b + q.val) : shapeCast ⟨3, ![a, b, c]⟩ x h (ix3 p q u) = x (ix2 r u) :=
  shapeCast_apply x h _ _ (by
    rw [Shape.rowMajor_val_three, Shape.rowMajor_val_two]
    show r.val * c + u.val = (p.val * b + q.val) * c + u.val
    rw [hr])

/-- An `[a, 1, c]` array repeated along its middle axis to `[a, b, c]` reads, at `(p, q, u)`, the operand at `(p, 0, u)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (u : Fin c) :
    broadcastTo ⟨3, ![a, b, c]⟩ x h (ix3 p q u) = x (ix3 p (0 : Fin 1) u) := by
  refine broadcastTo_apply x h (ix3 p q u) (ix3 p (0 : Fin 1) u) fun ax => ?_
  match ax with
  | ⟨0, _⟩ =>
    show p.val = if a = 1 then 0 else p.val
    split
    · have := p.isLt; omega
    · rfl
  | ⟨1, _⟩ => rfl
  | ⟨2, _⟩ =>
    show u.val = if c = 1 then 0 else u.val
    split
    · have := u.isLt; omega
    · rfl

/-- A `[1, b, c]` array repeated along a leading axis of length a reads, at `(p, q, u)`, the operand at `(0, q, u)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (u : Fin c) :
    broadcastTo ⟨3, ![a, b, c]⟩ x h (ix3 p q u) = x (ix3 (0 : Fin 1) q u) := by
  refine broadcastTo_apply x h (ix3 p q u) (ix3 (0 : Fin 1) q u) fun ax => ?_
  match ax with
  | ⟨0, _⟩ => rfl
  | ⟨1, _⟩ =>
    show q.val = if b = 1 then 0 else q.val
    split
    · have := q.isLt; omega
    · rfl
  | ⟨2, _⟩ =>
    show u.val = if c = 1 then 0 else u.val
    split
    · have := u.isLt; omega
    · rfl

end Cert.LibSplitAxes

end
-- ==== Proof.JoinerHostSide.lean ====
/-
  The two host sides of the joiner, each read index by index against the one function Joiner.G of JoinerSpec.

  (1) The reference program is a chain of host operations: two matrix products with their biases broadcast over the
      batch axes (the encoder and decoder projections), both broadcast to the common [8, 512, 64, 512] grid and added,
      tanh, a third product with the output weights, and the output bias.  Read at (n, t, u, v), with each product the
      sum over its one contracted coordinate, the chain is Joiner.logit, so the whole result is Joiner.G.

  (2) The kernel program runs host operations before its one call: conversions (the identity on the extended reals),
      transposes of the three weight matrices, the biases recast as one-row matrices, and the decoder projection
      computed on the merged rows n * 64 + u of the batch and label axes and split into [8, 64, 512] again.  Each of the
      six arrays the call stages is read here at an index given by coordinates, in terms of the argument arrays.
-/
import proofs.«174205_j79328045957280_2_alg».proof.Proof.Gen.ReferenceIdeal.Read
import proofs.«174205_j79328045957280_2_alg».proof.Proof.Gen.KernelIdeal.Frame
import proofs.«174205_j79328045957280_2_alg».proof.Proof.JoinerSpec
import proofs.«174205_j79328045957280_2_alg».proof.Proof.LibHostDotSum
import proofs.«174205_j79328045957280_2_alg».proof.Proof.LibMergeAxes
import proofs.«174205_j79328045957280_2_alg».proof.Proof.LibSplitAxes
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

/-! ## (1) The reference program is the joiner function -/

namespace Cert.ReferenceIdeal.JoinerRef

open Cert.ReferenceIdeal Cert.ReferenceIdeal.Gen Idealize.ShloMosaic Idealize.ShloMosaic.ValueIdx

theorem lidx0 (n : Fin 8) (t j k : Fin 512) : Read.lidx_main_v0 (ix3 n t j) k = ix3 n t k :=
  funext fun a => Fin.ext (by match a with | ⟨0, _⟩ => rfl | ⟨1, _⟩ => rfl | ⟨2, _⟩ => rfl)

theorem ridx0 (n : Fin 8) (t j k : Fin 512) : Read.ridx_main_v0 (ix3 n t j) k = ix2 j k :=
  funext fun a => Fin.ext (by match a with | ⟨0, _⟩ => rfl | ⟨1, _⟩ => rfl)

theorem bidx12 (n : Fin 8) (t j : Fin 512) : Read.idx_main_v1 (Read.idx_main_v2 (ix3 n t j)) = ix1 j :=
  funext fun a => Fin.ext (by match a with | ⟨0, _⟩ => rfl)

theorem lidx4 (n : Fin 8) (u : Fin 64) (j k : Fin 512) : Read.lidx_main_v4 (ix3 n u j) k = ix3 n u k :=
  funext fun a => Fin.ext (by match a with | ⟨0, _⟩ => rfl | ⟨1, _⟩ => rfl | ⟨2, _⟩ => rfl)

theorem ridx4 (n : Fin 8) (u : Fin 64) (j k : Fin 512) : Read.ridx_main_v4 (ix3 n u j) k = ix2 j k :=
  funext fun a => Fin.ext (by match a with | ⟨0, _⟩ => rfl | ⟨1, _⟩ => rfl)

theorem bidx56 (n : Fin 8) (u : Fin 64) (j : Fin 512) : Read.idx_main_v5 (Read.idx_main_v6 (ix3 n u j)) = ix1 j :=
  funext fun a => Fin.ext (by match a with | ⟨0, _⟩ => rfl)

/-- The encoder stage at (n, t, j) is the encoder projection. -/
theorem enc_at (x0 : S8x512x512.Idx → EReal) (x2 : S512x512.Idx → EReal) (x3 : S512.Idx → EReal)
    (n : Fin 8) (t j : Fin 512) :
    Read.val_main_v3 (F := Ideal) x0 x2 x3 (ix3 n t j) = Joiner.encProj x0 x2 x3 n t j := by
  rw [Read.val_main_v3_apply, Read.val_main_v0_apply, Read.val_main_v2_apply, Read.val_main_v1_apply, Ideal.addf_def,
    bidx12]
  unfold Joiner.encProj
  simp only [lidx0, ridx0]

/-- The decoder stage at (n, u, j) is the decoder projection. -/
theorem dec_at (x1 : S8x64x512.Idx → EReal) (x4 : S512x512.Idx → EReal) (x5 : S512.Idx → EReal)
    (n : Fin 8) (u : Fin 64) (j : Fin 512) :
    Read.val_main_v7 (F := Ideal) x1 x4 x5 (ix3 n u j) = Joiner.decProj x1 x4 x5 n u j := by
  rw [Read.val_main_v7_apply, Read.val_main_v4_apply, Read.val_main_v6_apply, Read.val_main_v5_apply, Ideal.addf_def,
    bidx56]
  unfold Joiner.decProj
  simp only [lidx4, ridx4]

theorem idx810 (n : Fin 8) (t : Fin 512) (u : Fin 64) (j : Fin 512) :
    Read.idx_main_v8 (Read.idx_main_v10 (ix4 n t u j)) = ix3 n t j :=
  funext fun a => Fin.ext (by match a with | ⟨0, _⟩ => rfl | ⟨1, _⟩ => rfl | ⟨2, _⟩ => rfl)

theorem idx911 (n : Fin 8) (t : Fin 512) (u : Fin 64) (j : Fin 512) :
    Read.idx_main_v9 (Read.idx_main_v11 (ix4 n t u j)) = ix3 n u j :=
  funext fun a => Fin.ext (by match a with | ⟨0, _⟩ => rfl | ⟨1, _⟩ => rfl | ⟨2, _⟩ => rfl)

theorem lidx14 (n : Fin 8) (t : Fin 512) (u : Fin 64) (v : Fin 500) (k : Fin 512) :
    Read.lidx_main_v14 (ix4 n t u v) k = ix4 n t u k :=
  funext fun a => Fin.ext (by match a with | ⟨0, _⟩ => rfl | ⟨1, _⟩ => rfl | ⟨2, _⟩ => rfl | ⟨3, _⟩ => rfl)

theorem ridx14 (n : Fin 8) (t : Fin 512) (u : Fin 64) (v : Fin 500) (k : Fin 512) :
    Read.ridx_main_v14 (ix4 n t u v) k = ix2 v k :=
  funext fun a => Fin.ext (by match a with | ⟨0, _⟩ => rfl | ⟨1, _⟩ => rfl)

theorem bidx1516 (n : Fin 8) (t : Fin 512) (u : Fin 64) (v : Fin 500) :
    Read.idx_main_v15 (Read.idx_main_v16 (ix4 n t u v)) = ix1 v :=
  funext fun a => Fin.ext (by match a with | ⟨0, _⟩ => rfl)

/-- The activation stage at (n, t, u, j) is tanh of the two projections' sum. -/
theorem act_at (x0 : S8x512x512.Idx → EReal) (x1 : S8x64x512.Idx → EReal) (x2 x4 : S512x512.Idx → EReal)
    (x3 x5 : S512.Idx → EReal) (n : Fin 8) (t : Fin 512) (u : Fin 64) (j : Fin 512) :
    Read.val_main_v13 (F := Ideal) x0 x1 x2 x3 x4 x5 (ix4 n t u j)
      = Ideal.tanh (Joiner.encProj x0 x2 x3 n t j + Joiner.decProj x1 x4 x5 n u j) := by
  rw [Read.val_main_v13_apply, Read.val_main_v12_apply, Read.val_main_v10_apply, Read.val_main_v8_apply,
    Read.val_main_v11_apply, Read.val_main_v9_apply, Ideal.hostUnary_tanh_def, Ideal.addf_def, idx810, idx911,
    enc_at, dec_at]

/-- The reference program's result is the joiner function, index by index. -/
theorem ref_eq_G (x0 : S8x512x512.Idx → EReal) (x1 : S8x64x512.Idx → EReal) (x2 x4 : S512x512.Idx → EReal)
    (x3 x5 : S512.Idx → EReal) (x6 : S500x512.Idx → EReal) (x7 : S500.Idx → EReal) :
    Read.val_main_v17 (F := Ideal) x0 x1 x2 x3 x4 x5 x6 x7 = Joiner.G x0 x1 x2 x3 x4 x5 x6 x7 := by
  funext i
  obtain ⟨n, t, u, v, rfl⟩ : ∃ n t u v, i = ix4 n t u v := ⟨_, _, _, _, eq_ix4 i⟩
  rw [Read.val_main_v17_apply, Read.val_main_v14_apply, Read.val_main_v16_apply, Read.val_main_v15_apply,
    Ideal.addf_def, bidx1516, Joiner.G_apply]
  unfold Joiner.logit
  simp only [lidx14, ridx14, act_at]

end Cert.ReferenceIdeal.JoinerRef

/-! ## (2) The arrays the kernel's call stages, read at an index -/

namespace Cert.KernelIdeal.JoinerHost

open Cert.KernelIdeal Cert.KernelIdeal.Gen Idealize.ShloMosaic Idealize.ShloMosaic.TcCoe Idealize.ShloMosaic.ValueIdx
open Idealize.ShloMosaic.StableHlo Idealize.SL.Sem
open Cert.LibSplitAxes

variable (m : (ℓ : Loc nD τ sig) → Buf (Elt Ideal) ℓ) (c : Dev nD)

/-- The encoder states reach the call converted only: the conversion is the identity on the extended reals. -/
theorem V_enc (n : Fin 8) (t e : Fin 512) :
    (V m c main_v10 : S8x512x512.Idx → EReal) (ix3 n t e)
      = (m ((c : Thread nD τ).loc main_arg0) : S8x512x512.Idx → EReal) (ix3 n t e) := by
  have h : (V m c main_v10 : S8x512x512.Idx → EReal)
      = truncf (F := Ideal) .bf16 (m ((c : Thread nD τ).loc main_arg0) : S8x512x512.Idx → EReal) bitsLt_bf16_f32 := by
    dsimp only [Gen.V, Gen.hostOps0]; after_results
  rw [h, truncf_apply]

/-- The encoder weights reach the call transposed. -/
theorem V_encW (e j : Fin 512) :
    (V m c main_v12 : S512x512.Idx → EReal) (ix2 e j)
      = (m ((c : Thread nD τ).loc main_arg2) : S512x512.Idx → EReal) (ix2 j e) := by
  have h : (V m c main_v12 : S512x512.Idx → EReal)
      = truncf (F := Ideal) .bf16 (transpose S512x512 [1, 0] (m ((c : Thread nD τ).loc main_arg2) : S512x512.Idx → EReal)
          transposes_S512x512_S512x512_1_0) bitsLt_bf16_f32 := by
    dsimp only [Gen.V, Gen.hostOps0]; after_results
  rw [h, truncf_apply, transpose_ix2_apply]

/-- The output weights reach the call transposed. -/
theorem V_outW (j : Fin 512) (v : Fin 500) :
    (V m c main_v14 : S512x500.Idx → EReal) (ix2 j v)
      = (m ((c : Thread nD τ).loc main_arg6) : S500x512.Idx → EReal) (ix2 v j) := by
  have h : (V m c main_v14 : S512x500.Idx → EReal)
      = truncf (F := Ideal) .bf16 (transpose S512x500 [1, 0] (m ((c : Thread nD τ).loc main_arg6) : S500x512.Idx → EReal)
          transposes_S500x512_S512x500_1_0) bitsLt_bf16_f32 := by
    dsimp only [Gen.V, Gen.hostOps0]; after_results
  rw [h, truncf_apply, transpose_ix2_apply]

/-- The encoder bias reaches the call as a one-row matrix. -/
theorem V_encb (z : Fin 1) (j : Fin 512) :
    (V m c main_v15 : S1x512.Idx → EReal) (ix2 z j)
      = (m ((c : Thread nD τ).loc main_arg3) : S512.Idx → EReal) (ix1 j) := by
  have h : (V m c main_v15 : S1x512.Idx → EReal)
      = shapeCast S1x512 (m ((c : Thread nD τ).loc main_arg3) : S512.Idx → EReal) shapeCasts_S512_S1x512 := by
    dsimp only [Gen.V, Gen.hostOps0]; after_results; rfl
  rw [h, shapeCast_a_1a_apply]

/-- The output bias reaches the call as a one-row matrix. -/
theorem V_outb (z : Fin 1) (v : Fin 500) :
    (V m c main_v16 : S1x500.Idx → EReal) (ix2 z v)
      = (m ((c : Thread nD τ).loc main_arg7) : S500.Idx → EReal) (ix1 v) := by
  have h : (V m c main_v16 : S1x500.Idx → EReal)
      = shapeCast S1x500 (m ((c : Thread nD τ).loc main_arg7) : S500.Idx → EReal) shapeCasts_S500_S1x500 := by
    dsimp only [Gen.V, Gen.hostOps0]; after_results; rfl
  rw [h, shapeCast_a_1a_apply]

/-- The decoder leg's host product contracts the left operand's columns with the right operand's rows. -/
theorem plainDot : LibMatmulSum.Plain dot_S512x512_S512x512_S512x512_1_0_0_1_n_n where
  rank := rfl
  size := rfl
  l0 := fun i q => by
    unfold DotDims.lhsIdx
    rw [dif_neg (show ¬(0 : Fin S512x512.rank) ∈ dot_S512x512_S512x512_S512x512_1_0_0_1_n_n.lhsBatch by decide),
      dif_pos (show (0 : Fin S512x512.rank) ∈ dot_S512x512_S512x512_S512x512_1_0_0_1_n_n.lhsNonContracting by decide)]
    rfl
  l1 := fun i q => dot_S512x512_S512x512_S512x512_1_0_0_1_n_n.lhsIdx_val_of_single rfl i q
  r0 := fun i q => dot_S512x512_S512x512_S512x512_1_0_0_1_n_n.rhsIdx_val_of_single rfl i q
  r1 := fun i q => by
    unfold DotDims.rhsIdx
    rw [dif_neg (show ¬(1 : Fin S512x512.rank) ∈ dot_S512x512_S512x512_S512x512_1_0_0_1_n_n.rhsBatch by decide),
      dif_pos (show (1 : Fin S512x512.rank) ∈ dot_S512x512_S512x512_S512x512_1_0_0_1_n_n.rhsNonContracting by decide)]
    rfl

/-- Row n * 64 + u of the merged [512, 512] arrays. -/
def row (n : Fin 8) (u : Fin 64) : Fin 512 := ⟨n.val * 64 + u.val, by have := n.isLt; have := u.isLt; omega⟩

/-- The bias row repeated down the 512 rows reads, at (r, j), the bias at j. -/
theorem bias_at (b : S512.Idx → EReal) (r j : Fin 512) :
    broadcastInDim S512x512 ![0, 1] bcast_S1x512_S512x512_0_1 (shapeCast S1x512 b shapeCasts_S512_S1x512) (ix2 r j)
      = b (ix1 j) := by
  rw [broadcastInDim_apply _ bcast_S1x512_S512x512_0_1 _ (ix2 r j) (ix2 (0 : Fin 1) j) (fun a => match a with
    | ⟨0, _⟩ => by show (0 : ℕ) = if (1 : ℕ) = 1 then 0 else r.val; rw [if_pos rfl]
    | ⟨1, _⟩ => by show j.val = if (512 : ℕ) = 1 then 0 else j.val; rw [if_neg (by decide)]),
    shapeCast_a_1a_apply]

/-- The decoder projection as the host computes it on the merged rows, read at row n * 64 + u. -/
theorem decRows_at (y : S8x64x512.Idx → EReal) (Wd : S512x512.Idx → EReal) (bd : S512.Idx → EReal)
    (n : Fin 8) (u : Fin 64) (j : Fin 512) :
    addf (F := Ideal)
        (Host.dotGeneral (F := Ideal) dot_S512x512_S512x512_S512x512_1_0_0_1_n_n none
          (truncf (F := Ideal) .bf16 (shapeCast S512x512 y shapeCasts_S8x64x512_S512x512) bitsLt_bf16_f32)
          (truncf (F := Ideal) .bf16 (transpose S512x512 [1, 0] Wd transposes_S512x512_S512x512_1_0) bitsLt_bf16_f32))
        (broadcastInDim S512x512 ![0, 1] bcast_S1x512_S512x512_0_1 (shapeCast S1x512 bd shapeCasts_S512_S1x512))
        (ix2 (row n u) j)
      = Joiner.decProj y Wd bd n u j := by
  rw [addf_apply, LibMatmulSum.hostDot_at plainDot, bias_at]
  unfold Joiner.decProj
  refine congrArg (· + bd (ix1 j)) (Finset.sum_congr rfl fun k _ => ?_)
  rw [truncf_apply, truncf_apply, transpose_ix2_apply,
    LibMergeAxes.shapeCast_abc_nc_apply y shapeCasts_S8x64x512_S512x512 n u k (row n u) rfl]

/-- The decoder projection reaches the call already formed: the host computes it on the rows n * 64 + u of the
    merged batch and label axes and splits the rows again. -/
theorem V_dec (n : Fin 8) (u : Fin 64) (j : Fin 512) :
    (V m c main_v9 : S8x64x512.Idx → EReal) (ix3 n u j)
      = Joiner.decProj (m ((c : Thread nD τ).loc main_arg1) : S8x64x512.Idx → EReal)
          (m ((c : Thread nD τ).loc main_arg4) : S512x512.Idx → EReal)
          (m ((c : Thread nD τ).loc main_arg5) : S512.Idx → EReal) n u j := by
  have h : (V m c main_v9 : S8x64x512.Idx → EReal)
      = truncf (F := Ideal) .bf16 (shapeCast S8x64x512
          (addf (F := Ideal)
            (Host.dotGeneral (F := Ideal) dot_S512x512_S512x512_S512x512_1_0_0_1_n_n none
              (truncf (F := Ideal) .bf16 (shapeCast S512x512 (m ((c : Thread nD τ).loc main_arg1) : S8x64x512.Idx → EReal)
                shapeCasts_S8x64x512_S512x512) bitsLt_bf16_f32)
              (truncf (F := Ideal) .bf16 (transpose S512x512 [1, 0] (m ((c : Thread nD τ).loc main_arg4) : S512x512.Idx → EReal)
                transposes_S512x512_S512x512_1_0) bitsLt_bf16_f32))
            (broadcastInDim S512x512 ![0, 1] bcast_S1x512_S512x512_0_1
              (shapeCast S1x512 (m ((c : Thread nD τ).loc main_arg5) : S512.Idx → EReal) shapeCasts_S512_S1x512)))
          shapeCasts_S512x512_S8x64x512) bitsLt_bf16_f32 := by
    dsimp only [Gen.V, Gen.hostOps0]; after_results; rfl
  rw [h, truncf_apply, shapeCast_nc_abc_apply _ shapeCasts_S512x512_S8x64x512 n u j (row n u) rfl, decRows_at]

end Cert.KernelIdeal.JoinerHost

end
-- ==== Proof.JoinerPieces.lean ====
/-
  What the kernel body stores into its output block, piece by piece.

  The body runs a loop of two trips; trip k loads rows 32k … 32k+31 of the encoder block and stores, into rows
  32k … 32k+31 of the output block [1, 64, 64, 500], the body's arithmetic of those rows and of the other five
  operands. Here the list of stores the whole body makes is put in closed form: every entry of it is the piece of
  some trip k — that rectangle with that value.
-/
import proofs.«174205_j79328045957280_2_alg».proof.Proof.Gen.KernelIdeal.Frame
import Idealize.ShloMosaic.Lib.Pipeline.Value
set_option maxRecDepth 16384

noncomputable section

namespace Cert.KernelIdeal.JoinerPieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What trip k stores: rows 32k … 32k+31 of the block, holding the body's arithmetic of the encoder rows
    32k … 32k+31 (x0 read through the trip's rectangle) and of the decoder block x1, the encoder weights x2 and bias x3,
    the output weights x4 and bias x5. -/
def piece (x0 : Vec F S1x64x512 .bf16) (x1 : Vec F S1x64x512 .bf16) (x2 : Vec F S512x512 .bf16) (x3 : Vec F S1x512 .f32)
    (x4 : Vec F S512x500 .bf16) (x5 : Vec F S1x500 .f32) (k : Fin k0_t1_loop.trips) : View.Piece (Elt F) S1x64x64x500 .f32 :=
  ⟨Rect.unit (s := S1x64x64x500) (k0_off2 k) S1x32x64x500.size (k0_off2_inb k),
    k0_pay1 x1 x2 x3 x4 x5 (View.ld x0 (Rect.unit (s := S1x64x512) (k0_off1 k) S1x32x512.size (k0_off1_inb k)))⟩

/-- One trip's stores: the one piece above, its encoder rows read from the buffer's contents. -/
theorem tripL_eq (𝒱 : Variants) (c : Dev nD) (bd : Option 𝒱.V) (i : grid0.Coords) (arg2 : Memref sig .tc .vmem S1x64x512 .bf16) (harg2 : arg2.IsWhole) (arg3 : Memref sig .tc .vmem S1x64x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x500 .bf16) (harg6 : arg6.IsWhole) (arg7 : Memref sig .tc .vmem S1x500 .f32) (harg7 : arg7.IsWhole) (arg8 : Memref sig .tc .vmem S1x64x64x500 .f32) (harg8 : arg8.IsWhole)
    (v0 : Vec F S1x64x512 .bf16) (v2 : Vec F S512x512 .bf16) (v4 : Vec F S1x512 .f32) (v6 : Vec F S512x500 .bf16) (v8 : Vec F S1x500 .f32)
    (X_arg2 : BufTy.Contents (Elt F) arg2.view.ty) (k : Fin k0_t1_loop.trips) :
    tripL_k0_t1 (F := F) 𝒱 c bd i arg2 harg2 arg3 harg3 arg4 harg4 arg5 harg5 arg6 harg6 arg7 harg7 arg8 harg8 v0 v2 v4 v6 v8 X_arg2 k
      = [⟨Rect.unit (s := S1x64x64x500) (k0_off2 k) S1x32x64x500.size (k0_off2_inb k),
          k0_pay1 v0 v2 v4 v6 v8 (View.readAt (Elt F) arg2.view (Rect.unit (s := S1x64x512) (k0_off1 k) S1x32x512.size (k0_off1_inb k)).toLoadRect X_arg2)⟩] := by
  unfold tripL_k0_t1
  unfold trip_k0_t1
  rfl

/-- Whatever the number of trips made, every store so far is some trip's. -/
theorem mem_pb {𝒱 : Variants} {c : Dev nD} {bd : Option 𝒱.V} {i : grid0.Coords} {arg2 : Memref sig .tc .vmem S1x64x512 .bf16} {harg2 : arg2.IsWhole} {arg3 : Memref sig .tc .vmem S1x64x512 .bf16} {harg3 : arg3.IsWhole} {arg4 : Memref sig .tc .vmem S512x512 .bf16} {harg4 : arg4.IsWhole} {arg5 : Memref sig .tc .vmem S1x512 .f32} {harg5 : arg5.IsWhole} {arg6 : Memref sig .tc .vmem S512x500 .bf16} {harg6 : arg6.IsWhole} {arg7 : Memref sig .tc .vmem S1x500 .f32} {harg7 : arg7.IsWhole} {arg8 : Memref sig .tc .vmem S1x64x64x500 .f32} {harg8 : arg8.IsWhole}
    {v0 : Vec F S1x64x512 .bf16} {v2 : Vec F S512x512 .bf16} {v4 : Vec F S1x512 .f32} {v6 : Vec F S512x500 .bf16} {v8 : Vec F S1x500 .f32}
    {X_arg2 : BufTy.Contents (Elt F) arg2.view.ty} :
    ∀ (n : ℕ) (p : View.Piece (Elt F) S1x64x64x500 .f32),
      p ∈ pb_k0_t1 (F := F) 𝒱 c bd i arg2 harg2 arg3 harg3 arg4 harg4 arg5 harg5 arg6 harg6 arg7 harg7 arg8 harg8 v0 v2 v4 v6 v8 X_arg2 n →
      ∃ k : Fin k0_t1_loop.trips, p ∈ tripL_k0_t1 (F := F) 𝒱 c bd i arg2 harg2 arg3 harg3 arg4 harg4 arg5 harg5 arg6 harg6 arg7 harg7 arg8 harg8 v0 v2 v4 v6 v8 X_arg2 k
  | 0, p, h => by
    rw [pb_k0_t1.eq_1] at h
    exact absurd h List.not_mem_nil
  | n + 1, p, h => by
    rw [pb_k0_t1.eq_2] at h
    unfold pb_k0_t1Step at h
    split at h
    · rename_i hlt
      rcases List.mem_append.mp h with h | h
      · exact ⟨⟨n, hlt⟩, h⟩
      · exact mem_pb n p h
    · exact mem_pb n p h

theorem hz2 : (![0, 0] : Fin 2 → Nat) = fun _ => 0 := funext fun a => by fin_cases a <;> rfl
theorem hz3 : (![0, 0, 0] : Fin 3 → Nat) = fun _ => 0 := funext fun a => by fin_cases a <;> rfl

/-- THE BODY'S STORES: every piece the whole-body run found is the piece of some trip, at the operands' contents. -/
theorem run_pieces (c : Dev nD) (i : grid0.Coords) (arg2 : Memref sig .tc .vmem S1x64x512 .bf16) (harg2 : arg2.IsWhole) (arg3 : Memref sig .tc .vmem S1x64x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x500 .bf16) (harg6 : arg6.IsWhole) (arg7 : Memref sig .tc .vmem S1x500 .f32) (harg7 : arg7.IsWhole) (arg8 : Memref sig .tc .vmem S1x64x64x500 .f32) (harg8 : arg8.IsWhole)
    (x0 : Vec F S1x64x512 .bf16) (x1 : Vec F S1x64x512 .bf16) (x2 : Vec F S512x512 .bf16) (x3 : Vec F S1x512 .f32) (x4 : Vec F S512x500 .bf16) (x5 : Vec F S1x500 .f32)
    (p : View.Piece (Elt F) S1x64x64x500 .f32)
    (hp : p ∈ (kernelRun0_A (F := F) c i arg2 harg2 arg3 harg3 arg4 harg4 arg5 harg5 arg6 harg6 arg7 harg7 arg8 harg8 x0 x1 x2 x3 x4 x5).1) :
    ∃ k : Fin k0_t1_loop.trips, p = piece x0 x1 x2 x3 x4 x5 k := by
  unfold kernelRun0_A at hp
  dsimp only at hp
  obtain ⟨k, hk⟩ := mem_pb _ p hp
  rw [tripL_eq] at hk
  refine ⟨k, (List.mem_singleton.mp hk).trans ?_⟩
  unfold piece
  simp only [View.readAt_eq_ld, harg2.read_unread, harg3.read_unread, harg4.read_unread, harg5.read_unread,
    harg6.read_unread, harg7.read_unread, View.ld_unit_zero (S := S1x64x512) hz3, View.ld_unit_zero (S := S512x512) hz2,
    View.ld_unit_zero (S := S1x512) hz2, View.ld_unit_zero (S := S512x500) hz2, View.ld_unit_zero (S := S1x500) hz2]

end Cert.KernelIdeal.JoinerPieces

end
-- ==== Proof.JoinerPayload.lean ====
/-
  One trip of the joiner kernel's loop, read at an index.

  The trip takes 32 encoder rows x(r, ·), the decoder projection block dec(u, ·) for 64 label positions, the encoder
  weights We'(e, j) (already transposed) with the bias be(j), and the output weights Wo'(j, v) (already transposed) with
  the bias bo(v), and stores the block

    out(r, u, v) = (Σ_j tanh(((Σ_e x(r, e) · We'(e, j)) + be(j)) + dec(u, j)) · Wo'(j, v)) + bo(v).

  The body forms it with two matrix products into zero accumulators, each a plain sum over its contraction coordinate;
  between them the encoder rows get a unit middle axis and are repeated along the 64 label positions, the decoder block
  is repeated along the 32 rows, and the [32, 64, 512] activation is read as a [2048, 512] matrix whose row r * 64 + u is
  the pair (r, u); after the second product the [2048, 500] result is read back as [32, 64, 500]. Each layout step is
  read at an index given by coordinates (Proof/LibSplitAxes.lean, Proof/LibMergeAxes.lean and the library's own); the two
  products are read through the six index facts of their dimension numbers. Format changes are the identity on the extended reals.
-/
import proofs.«174205_j79328045957280_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«174205_j79328045957280_2_alg».proof.Proof.LibMatmulSum
import proofs.«174205_j79328045957280_2_alg».proof.Proof.LibMergeAxes
import proofs.«174205_j79328045957280_2_alg».proof.Proof.LibSplitAxes

noncomputable section

namespace Cert.KernelIdeal.JoinerBody

open Cert.KernelIdeal Cert.KernelIdeal.Gen Idealize.ShloMosaic Idealize.ShloMosaic.ValueIdx
open Cert.LibSplitAxes

/-! ## The two products' dimension numbers -/

/-- The encoder product [32, 512] x [512, 512] is a plain product with contraction length 512. -/
theorem plain_enc : Cert.LibMatmulSum.Plain dot_S32x512_S512x512_S32x512_1_0_0_1_n_n where
  rank := rfl
  size := rfl
  l0 := fun i q => by
    unfold DotDims.lhsIdx
    rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
    rfl
  l1 := fun i q => dot_S32x512_S512x512_S32x512_1_0_0_1_n_n.lhsIdx_val_of_single rfl i q
  r0 := fun i q => dot_S32x512_S512x512_S32x512_1_0_0_1_n_n.rhsIdx_val_of_single rfl i q
  r1 := fun i q => by
    unfold DotDims.rhsIdx
    rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
    rfl

/-- The output product [2048, 512] x [512, 500] is a plain product with contraction length 512. -/
theorem plain_out : Cert.LibMatmulSum.Plain dot_S2048x512_S512x500_S2048x500_1_0_0_1_n_n where
  rank := rfl
  size := rfl
  l0 := fun i q => by
    unfold DotDims.lhsIdx
    rw [dif_neg (show ¬(0 : Fin S2048x512.rank) ∈ dot_S2048x512_S512x500_S2048x500_1_0_0_1_n_n.lhsBatch by decide), dif_pos (show (0 : Fin S2048x512.rank) ∈ dot_S2048x512_S512x500_S2048x500_1_0_0_1_n_n.lhsNonContracting by decide)]
    rfl
  l1 := fun i q => dot_S2048x512_S512x500_S2048x500_1_0_0_1_n_n.lhsIdx_val_of_single rfl i q
  r0 := fun i q => dot_S2048x512_S512x500_S2048x500_1_0_0_1_n_n.rhsIdx_val_of_single rfl i q
  r1 := fun i q => by
    unfold DotDims.rhsIdx
    rw [dif_neg (show ¬(1 : Fin S512x500.rank) ∈ dot_S2048x512_S512x500_S2048x500_1_0_0_1_n_n.rhsBatch by decide), dif_pos (show (1 : Fin S512x500.rank) ∈ dot_S2048x512_S512x500_S2048x500_1_0_0_1_n_n.rhsNonContracting by decide)]
    rfl

/-! ## The body's three stages at an index -/

/-- The encoder product with its bias row, at row r and joint coordinate j. -/
theorem enc_at (l : FVec Ideal S32x512 .bf16) (w : FVec Ideal S512x512 .bf16) (b : FVec Ideal S1x512 .f32)
    (r : Fin 32) (j : Fin 512) :
    addf (matmul (F := Ideal) dot_S32x512_S512x512_S32x512_1_0_0_1_n_n none l w (constant (F := Ideal) S32x512 .f32 0x00000000#32))
        (broadcastTo S32x512 b broadcasts_S1x512_S32x512) (ix2 r j)
      = (∑ e : Fin 512, l (ix2 r e) * w (ix2 e j)) + b (ix2 (0 : Fin 1) j) :=
  (addf_apply _ _ _).trans (congrArg₂ (· + ·) (Cert.LibMatmulSum.matmul_zero_at plain_enc none l w r j)
    (broadcastTo_1b_ab_apply b broadcasts_S1x512_S32x512 r j))

/-- The activation: the encoder rows with a unit middle axis repeated along the label positions, plus the decoder block
repeated along the rows, through tanh, at (r, u, j). -/
theorem act_at (enc : FVec Ideal S32x512 .f32) (dec : FVec Ideal S1x64x512 .bf16) (r : Fin 32) (u : Fin 64) (j : Fin 512) :
    (truncf .bf16 (tanh (addf
        (broadcastTo S32x64x512 (shapeCast S32x1x512 enc shapeCasts_S32x512_S32x1x512) broadcasts_S32x1x512_S32x64x512)
        (broadcastTo S32x64x512 (extf .f32 dec bitsLt_bf16_f32) broadcasts_S1x64x512_S32x64x512))) bitsLt_bf16_f32 :
        FVec Ideal S32x64x512 .bf16) (ix3 r u j)
      = Ideal.tanh (enc (ix2 r j) + dec (ix3 (0 : Fin 1) u j)) := by
  refine congrArg Ideal.tanh (congrArg₂ (· + ·) ?_ ?_)
  · exact (broadcastTo_a1c_abc_apply _ broadcasts_S32x1x512_S32x64x512 r u j).trans
      (shapeCast_ac_a1c_apply enc shapeCasts_S32x512_S32x1x512 r 0 j)
  · exact broadcastTo_1bc_abc_apply (extf .f32 dec bitsLt_bf16_f32) broadcasts_S1x64x512_S32x64x512 r u j

/-- The output product over the activation read as a [2048, 512] matrix, with its bias row, read back at (z, r, u, v). -/
theorem out_at (act : FVec Ideal S32x64x512 .bf16) (w : FVec Ideal S512x500 .bf16) (b : FVec Ideal S1x500 .f32)
    (z : Fin 1) (r : Fin 32) (u : Fin 64) (v : Fin 500) :
    shapeCast S1x32x64x500 (shapeCast S32x64x500 (addf
        (matmul (F := Ideal) dot_S2048x512_S512x500_S2048x500_1_0_0_1_n_n none (shapeCast S2048x512 act shapeCasts_S32x64x512_S2048x512) w
          (constant (F := Ideal) S2048x500 .f32 0x00000000#32))
        (broadcastTo S2048x500 b broadcasts_S1x500_S2048x500)) shapeCasts_S2048x500_S32x64x500)
        shapeCasts_S32x64x500_S1x32x64x500 (ix4 z r u v)
      = (∑ j : Fin 512, act (ix3 r u j) * w (ix2 j v)) + b (ix2 (0 : Fin 1) v) := by
  have hlt : r.val * 64 + u.val < 2048 := by have := r.isLt; have := u.isLt; omega
  refine (shapeCast_abc_1abc_apply _ shapeCasts_S32x64x500_S1x32x64x500 z r u v).trans ?_
  refine (shapeCast_nc_abc_apply _ shapeCasts_S2048x500_S32x64x500 r u v ⟨r.val * 64 + u.val, hlt⟩ rfl).trans ?_
  refine (addf_apply _ _ _).trans (congrArg₂ (· + ·) ?_ (broadcastTo_1b_ab_apply b broadcasts_S1x500_S2048x500 _ v))
  refine (Cert.LibMatmulSum.matmul_zero_at plain_out none _ w _ v).trans ?_
  exact Finset.sum_congr rfl fun j _ => congrArg (· * w (ix2 j v))
    (Cert.LibMergeAxes.shapeCast_abc_nc_apply act shapeCasts_S32x64x512_S2048x512 r u j _ rfl)

/-! ## The stored block at an index -/

/-- One trip's stored value at (z, r, u, v): the output layer over the tanh of the encoder projection of row r plus the
decoder projection at label position u. -/
theorem pay_at (v0 : Vec Ideal S1x64x512 .bf16) (v2 : Vec Ideal S512x512 .bf16) (v4 : Vec Ideal S1x512 .f32)
    (v6 : Vec Ideal S512x500 .bf16) (v8 : Vec Ideal S1x500 .f32) (v14 : Vec Ideal S1x32x512 .bf16)
    (z : Fin 1) (r : Fin 32) (u : Fin 64) (v : Fin 500) :
    k0_pay1 (F := Ideal) v0 v2 v4 v6 v8 v14 (ix4 z r u v)
      = (∑ j : Fin 512, Ideal.tanh (((∑ e : Fin 512, v14 (ix3 (0 : Fin 1) r e) * v2 (ix2 e j)) + v4 (ix2 (0 : Fin 1) j))
          + v0 (ix3 (0 : Fin 1) u j)) * v6 (ix2 j v)) + v8 (ix2 (0 : Fin 1) v) := by
  unfold k0_pay1
  refine (out_at _ _ _ z r u v).trans ?_
  refine congrArg₂ (· + ·) (Finset.sum_congr rfl fun j _ => congrArg₂ (· * ·) ?_ ?_) ?_
  · refine (act_at _ _ r u j).trans (congrArg Ideal.tanh (congrArg₂ (· + ·) ?_ ?_))
    · refine (enc_at _ _ _ r j).trans
        (congrArg₂ (· + ·) (Finset.sum_congr rfl fun e _ => congrArg₂ (· * ·) ?_ ?_) ?_)
      · exact shapeCast_1ab_ab_apply v14 shapeCasts_S1x32x512_S32x512 r e
      · exact congrFun (shapeCast_self v2 shapeCasts_S512x512_S512x512) _
      · exact congrFun (shapeCast_self v4 shapeCasts_S1x512_S1x512) _
    · exact congrFun (shapeCast_shapeCast v0 shapeCasts_S1x64x512_S64x512 shapeCasts_S64x512_S1x64x512) _
  · exact congrFun (shapeCast_self v6 shapeCasts_S512x500_S512x500) _
  · exact congrFun (shapeCast_self v8 shapeCasts_S1x500_S1x500) _

end Cert.KernelIdeal.JoinerBody

end
-- ==== Proof.JoinerBlock.lean ====
/-
  The output block [1, 64, 64, 500] the kernel body leaves at a grid point, as ONE function of its six input blocks.

  With x the point's 64 encoder rows [1, 64, 512], dec the decoder projection block [1, 64, 512], We' [512, 512] and
  be [1, 512] the (transposed) encoder weights and bias, Wo' [512, 500] and bo [1, 500] the (transposed) output weights
  and bias, the block holds at (0, R, u, v)

    (Σ_j tanh(((Σ_e x(0, R, e) · We'(e, j)) + be(0, j)) + dec(0, u, j)) · Wo'(j, v)) + bo(0, v).

  The body fills it in two trips of 32 rows: trip k's store covers rows R = 32k + r, r < 32, and its value at
  (0, r, u, v) is the formula above read at the encoder rows 32k + r. Each piece so agrees with the one function at
  the place it is stored, the two pieces cover the block, and so the block read back is that function.
-/
import proofs.«174205_j79328045957280_2_alg».proof.Proof.JoinerPieces
import proofs.«174205_j79328045957280_2_alg».proof.Proof.JoinerPayload

set_option maxRecDepth 16384

noncomputable section

namespace Cert.KernelIdeal.JoinerBlock

open Cert.KernelIdeal Cert.KernelIdeal.Gen Cert.KernelIdeal.JoinerPieces
open Idealize.ShloMosaic Idealize.ShloMosaic.ValueIdx

/-- The block's entry at encoder row R, label position u, vocabulary entry v. -/
def blockAt (x0 : Vec Ideal S1x64x512 .bf16) (x1 : Vec Ideal S1x64x512 .bf16) (x2 : Vec Ideal S512x512 .bf16) (x3 : Vec Ideal S1x512 .f32) (x4 : Vec Ideal S512x500 .bf16) (x5 : Vec Ideal S1x500 .f32) (R : Fin 64) (u : Fin 64) (v : Fin 500) : EReal :=
  (∑ j : Fin 512, Ideal.tanh (((∑ e : Fin 512, x0 (ix3 (0 : Fin 1) R e) * x2 (ix2 e j)) + x3 (ix2 (0 : Fin 1) j))
      + x1 (ix3 (0 : Fin 1) u j)) * x4 (ix2 j v)) + x5 (ix2 (0 : Fin 1) v)

/-- The whole block, index by index. -/
def blockFn (x0 : Vec Ideal S1x64x512 .bf16) (x1 : Vec Ideal S1x64x512 .bf16) (x2 : Vec Ideal S512x512 .bf16) (x3 : Vec Ideal S1x512 .f32) (x4 : Vec Ideal S512x500 .bf16) (x5 : Vec Ideal S1x500 .f32) : Vec Ideal S1x64x64x500 .f32 :=
  fun y => blockAt x0 x1 x2 x3 x4 x5 (y 1) (y 2) (y 3)

/-- Trip k's piece agrees with the block function where it is stored: local row r of the piece is row 32k + r of the block,
    and its encoder rows are read at the same offset. -/
theorem piece_agrees (x0 : Vec Ideal S1x64x512 .bf16) (x1 : Vec Ideal S1x64x512 .bf16) (x2 : Vec Ideal S512x512 .bf16) (x3 : Vec Ideal S1x512 .f32) (x4 : Vec Ideal S512x500 .bf16) (x5 : Vec Ideal S1x500 .f32) (k : Fin k0_t1_loop.trips)
    (x : (piece (F := Ideal) x0 x1 x2 x3 x4 x5 k).1.shape.Idx) :
    (piece (F := Ideal) x0 x1 x2 x3 x4 x5 k).2 x = blockFn x0 x1 x2 x3 x4 x5 ((piece (F := Ideal) x0 x1 x2 x3 x4 x5 k).1.emb x) := by
  have hk : k.val < 2 := Nat.lt_of_lt_of_le k.isLt k0_t1_abs.2.1
  have o1 := k0_off1_eq k
  have o2 := k0_off2_eq k
  have a0 : k0_off1 k 0 = 0 := by rw [o1]; rfl
  have a1 : k0_off1 k 1 = 32 * k.val := by rw [o1]; rfl
  have a2 : k0_off1 k 2 = 0 := by rw [o1]; rfl
  have b1 : k0_off2 k 1 = 32 * k.val := by rw [o2]; rfl
  have b2 : k0_off2 k 2 = 0 := by rw [o2]; rfl
  have b3 : k0_off2 k 3 = 0 := by rw [o2]; rfl
  obtain ⟨z, r, u, v, rfl⟩ : ∃ (z : Fin 1) (r : Fin 32) (u : Fin 64) (v : Fin 500), x = ix4 z r u v :=
    ⟨x 0, x 1, x 2, x 3, eq_ix4 x⟩
  have hr : r.val < 32 := r.isLt
  have e1 : ((piece (F := Ideal) x0 x1 x2 x3 x4 x5 k).1.emb (ix4 z r u v)) 1 = (⟨32 * k.val + r.val, by omega⟩ : Fin 64) :=
    Fin.ext (by show k0_off2 k 1 + 1 * r.val = 32 * k.val + r.val; omega)
  have e2 : ((piece (F := Ideal) x0 x1 x2 x3 x4 x5 k).1.emb (ix4 z r u v)) 2 = u :=
    Fin.ext (by show k0_off2 k 2 + 1 * u.val = u.val; omega)
  have e3 : ((piece (F := Ideal) x0 x1 x2 x3 x4 x5 k).1.emb (ix4 z r u v)) 3 = v :=
    Fin.ext (by show k0_off2 k 3 + 1 * v.val = v.val; omega)
  show k0_pay1 (F := Ideal) x1 x2 x3 x4 x5 (View.ld x0 (Rect.unit (s := S1x64x512) (k0_off1 k) S1x32x512.size (k0_off1_inb k))) (ix4 z r u v)
    = blockAt x0 x1 x2 x3 x4 x5 (((piece (F := Ideal) x0 x1 x2 x3 x4 x5 k).1.emb (ix4 z r u v)) 1)
        (((piece (F := Ideal) x0 x1 x2 x3 x4 x5 k).1.emb (ix4 z r u v)) 2) (((piece (F := Ideal) x0 x1 x2 x3 x4 x5 k).1.emb (ix4 z r u v)) 3)
  rw [e1, e2, e3, JoinerBody.pay_at]
  have hx : ∀ e : Fin 512, View.ld x0 (Rect.unit (s := S1x64x512) (k0_off1 k) S1x32x512.size (k0_off1_inb k)) (ix3 (0 : Fin 1) r e)
      = x0 (ix3 (0 : Fin 1) (⟨32 * k.val + r.val, by omega⟩ : Fin 64) e) := fun e =>
    congrArg x0 (funext fun a => Fin.ext (by
      match a with
      | ⟨0, _⟩ => show k0_off1 k 0 + 1 * 0 = 0; omega
      | ⟨1, _⟩ => show k0_off1 k 1 + 1 * r.val = 32 * k.val + r.val; omega
      | ⟨2, _⟩ => show k0_off1 k 2 + 1 * e.val = e.val; omega))
  unfold blockAt
  simp only [hx]

/-- THE BLOCK READ BACK: what the body leaves in the output's staging buffer is the block function of the six input blocks. -/
theorem out_block (c : Dev nD) (i : grid0.Coords) (arg2 : Memref sig .tc .vmem S1x64x512 .bf16) (harg2 : arg2.IsWhole) (arg3 : Memref sig .tc .vmem S1x64x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x500 .bf16) (harg6 : arg6.IsWhole) (arg7 : Memref sig .tc .vmem S1x500 .f32) (harg7 : arg7.IsWhole) (arg8 : Memref sig .tc .vmem S1x64x64x500 .f32) (harg8 : arg8.IsWhole) (x0 : Vec Ideal S1x64x512 .bf16) (x1 : Vec Ideal S1x64x512 .bf16) (x2 : Vec Ideal S512x512 .bf16) (x3 : Vec Ideal S1x512 .f32) (x4 : Vec Ideal S512x500 .bf16) (x5 : Vec Ideal S1x500 .f32) :
    out0_A_6 (F := Ideal) c i arg2 harg2 arg3 harg3 arg4 harg4 arg5 harg5 arg6 harg6 arg7 harg7 arg8 harg8 x0 x1 x2 x3 x4 x5 = blockFn x0 x1 x2 x3 x4 x5 := by
  unfold out0_A_6
  rw [View.read_writes_eq_canon _ _ _ (cover0_A_6 c i arg2 harg2 arg3 harg3 arg4 harg4 arg5 harg5 arg6 harg6 arg7 harg7 arg8 harg8 x0 x1 x2 x3 x4 x5)]
  funext y
  refine View.canon_apply_of_pieces (blockFn x0 x1 x2 x3 x4 x5) _ (fun p hp x => ?_) y
    (cover0_A_6 c i arg2 harg2 arg3 harg3 arg4 harg4 arg5 harg5 arg6 harg6 arg7 harg7 arg8 harg8 x0 x1 x2 x3 x4 x5 y)
  obtain ⟨k, rfl⟩ := run_pieces c i arg2 harg2 arg3 harg3 arg4 harg4 arg5 harg5 arg6 harg6 arg7 harg7 arg8 harg8 x0 x1 x2 x3 x4 x5 p hp
  exact piece_agrees x0 x1 x2 x3 x4 x5 k x

end Cert.KernelIdeal.JoinerBlock

end
-- ==== Proof.JoinerArray.lean ====
/-
  From the blocks to the whole result array.

  The call's grid has 8 × 8 points; point (n, τ) works on batch entry n and the encoder frames 64τ … 64τ + 63, and writes
  back the block [1, 64, 64, 500] of the result array [8, 512, 64, 500] at block index (n, τ, 0, 0). Its input blocks
  are: the 64 encoder rows of (n, τ); the decoder projection of batch entry n, which the host program formed before the
  call; and the four weight and bias arrays whole, the weights transposed by the host program. Reading each input block
  at the array indices its rectangle names, the block the body leaves is the joiner's function restricted to the
  block; the 64 blocks tile the array (frame t lies in block t / 64); so the array ends holding that function.
-/
import proofs.«174205_j79328045957280_2_alg».proof.Proof.Gen.KernelIdeal.Value
import proofs.«174205_j79328045957280_2_alg».proof.Proof.JoinerBlock
import proofs.«174205_j79328045957280_2_alg».proof.Proof.JoinerHostSide

set_option maxRecDepth 16384

noncomputable section

namespace Cert.KernelIdeal.JoinerArray

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.JoinerBlock Cert.KernelIdeal.JoinerHost

variable (m : (ℓ : Loc nD τ sig) → Buf (Elt Ideal) ℓ) (ρ : Dev nD → PrngReg)

/-- The joiner's result of the argument arrays as launched. -/
abbrev Garr (c : Dev nD) : S8x512x64x500.Idx → EReal :=
  Joiner.G (m ((c : Thread nD τ).loc main_arg0) : S8x512x512.Idx → EReal) (m ((c : Thread nD τ).loc main_arg1) : S8x64x512.Idx → EReal)
    (m ((c : Thread nD τ).loc main_arg2) : S512x512.Idx → EReal) (m ((c : Thread nD τ).loc main_arg3) : S512.Idx → EReal)
    (m ((c : Thread nD τ).loc main_arg4) : S512x512.Idx → EReal) (m ((c : Thread nD τ).loc main_arg5) : S512.Idx → EReal)
    (m ((c : Thread nD τ).loc main_arg6) : S500x512.Idx → EReal) (m ((c : Thread nD τ).loc main_arg7) : S500.Idx → EReal)

/-! ## The block function of the point's input blocks is the joiner's function on the block -/

/-- Entry by entry: if the six input blocks hold the arrays' entries the joiner's formula at (n, T, u, v) reads, the block's
    entry at (R, u, v) is that formula. -/
theorem blockAt_eq_logit (x0 : Vec Ideal S1x64x512 .bf16) (x1 : Vec Ideal S1x64x512 .bf16) (x2 : Vec Ideal S512x512 .bf16) (x3 : Vec Ideal S1x512 .f32) (x4 : Vec Ideal S512x500 .bf16) (x5 : Vec Ideal S1x500 .f32)
    (A0 : S8x512x512.Idx → EReal) (A1 : S8x64x512.Idx → EReal) (A2 : S512x512.Idx → EReal) (A3 : S512.Idx → EReal)
    (A4 : S512x512.Idx → EReal) (A5 : S512.Idx → EReal) (A6 : S500x512.Idx → EReal) (A7 : S500.Idx → EReal)
    (n : Fin 8) (T : Fin 512) (R u : Fin 64) (v : Fin 500)
    (h0 : ∀ e : Fin 512, x0 (ix3 (0 : Fin 1) R e) = A0 (ix3 n T e))
    (h1 : ∀ j : Fin 512, x1 (ix3 (0 : Fin 1) u j) = Joiner.decProj A1 A4 A5 n u j)
    (h2 : ∀ e j : Fin 512, x2 (ix2 e j) = A2 (ix2 j e))
    (h3 : ∀ j : Fin 512, x3 (ix2 (0 : Fin 1) j) = A3 (ix1 j))
    (h4 : ∀ (j : Fin 512) (w : Fin 500), x4 (ix2 j w) = A6 (ix2 w j))
    (h5 : ∀ w : Fin 500, x5 (ix2 (0 : Fin 1) w) = A7 (ix1 w)) :
    blockAt x0 x1 x2 x3 x4 x5 R u v = Joiner.logit A0 A1 A2 A3 A4 A5 A6 A7 n T u v := by
  unfold blockAt Joiner.logit Joiner.encProj
  simp only [h0, h1, h2, h3, h4, h5]

/-- The same at a block index J and the array index I it stands for (their last two coordinates equal). -/
theorem blockFn_eq_G (x0 : Vec Ideal S1x64x512 .bf16) (x1 : Vec Ideal S1x64x512 .bf16) (x2 : Vec Ideal S512x512 .bf16) (x3 : Vec Ideal S1x512 .f32) (x4 : Vec Ideal S512x500 .bf16) (x5 : Vec Ideal S1x500 .f32)
    (A0 : S8x512x512.Idx → EReal) (A1 : S8x64x512.Idx → EReal) (A2 : S512x512.Idx → EReal) (A3 : S512.Idx → EReal)
    (A4 : S512x512.Idx → EReal) (A5 : S512.Idx → EReal) (A6 : S500x512.Idx → EReal) (A7 : S500.Idx → EReal)
    (J : S1x64x64x500.Idx) (I : S8x512x64x500.Idx) (hu : (I 2).val = (J 2).val) (hv : (I 3).val = (J 3).val)
    (h0 : ∀ e : Fin 512, x0 (ix3 (0 : Fin 1) (J 1) e) = A0 (ix3 (I 0) (I 1) e))
    (h1 : ∀ j : Fin 512, x1 (ix3 (0 : Fin 1) (J 2) j) = Joiner.decProj A1 A4 A5 (I 0) (J 2) j)
    (h2 : ∀ e j : Fin 512, x2 (ix2 e j) = A2 (ix2 j e))
    (h3 : ∀ j : Fin 512, x3 (ix2 (0 : Fin 1) j) = A3 (ix1 j))
    (h4 : ∀ (j : Fin 512) (w : Fin 500), x4 (ix2 j w) = A6 (ix2 w j))
    (h5 : ∀ w : Fin 500, x5 (ix2 (0 : Fin 1) w) = A7 (ix1 w)) :
    blockFn x0 x1 x2 x3 x4 x5 J = Joiner.G A0 A1 A2 A3 A4 A5 A6 A7 I := by
  have eu : I 2 = J 2 := Fin.ext hu
  have ev : I 3 = J 3 := Fin.ext hv
  show blockAt x0 x1 x2 x3 x4 x5 (J 1) (J 2) (J 3) = Joiner.logit A0 A1 A2 A3 A4 A5 A6 A7 (I 0) (I 1) (I 2) (I 3)
  rw [eu, ev]
  exact blockAt_eq_logit x0 x1 x2 x3 x4 x5 A0 A1 A2 A3 A4 A5 A6 A7 (I 0) (I 1) (J 1) (J 2) (J 3) h0 h1 h2 h3 h4 h5

/-! ## The windows' block indices over the grid -/

/-- The printed index maps, decided over the 64 grid points: the encoder window moves with the output window on the
    batch and frame axes, the decoder window on the batch axis only, the four weight and bias windows stay at block 0,
    and the output's block indices stay in their ranges. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) < 8 ∧ win0_6.index t (1 : Fin 4) < 8
    ∧ win0_6.index t (2 : Fin 4) = 0 ∧ win0_6.index t (3 : Fin 4) = 0 :=
  (by decide +kernel : ∀ t : Fin grid0.N, _)

/-- Every block of the result array is some point's. -/
theorem idx_onto : ∀ (q0 : Fin 8) (q1 : Fin 8), ∃ t : Fin cfg0.N, win0_6.index t = ![q0.val, q1.val, 0, 0] :=
  (by decide +kernel : ∀ (q0 : Fin 8) (q1 : Fin 8), ∃ t : Fin grid0.N, win0_6.index t = ![q0.val, q1.val, 0, 0])

/-! ## What a point writes back -/

/-- WHAT POINT t WRITES BACK is block t of the joiner's function of the argument arrays. -/
theorem flushed_eq (c : Dev nD) (t : Fin cfg0.N) :
    (dats m 0 c).flushed 6 t = ((cfg0.win 6).blk t).view.read (Elt Ideal) (Garr m c) := by
  rw [Value.flushed6_A, JoinerBlock.out_block]
  obtain ⟨f00, f01, f02, f10, f11, f12, f20, f21, f30, f31, f40, f41, f50, f51, g0, g1, g2, g3⟩ := idx_facts t
  funext j
  have hj0 : (j 0).val < 1 := (j 0).isLt
  have hj1 : (j 1).val < 64 := (j 1).isLt
  have hj2 : (j 2).val < 64 := (j 2).isLt
  have hj3 : (j 3).val < 500 := (j 3).isLt
  show blockFn (iblk m c 0 t) (iblk m c 1 t) (iblk m c 2 t) (iblk m c 3 t) (iblk m c 4 t) (iblk m c 5 t)
      ((cfg0.win 6).xinj (grid0.coords t) j)
    = Joiner.G (m ((c : Thread nD τ).loc main_arg0) : S8x512x512.Idx → EReal) (m ((c : Thread nD τ).loc main_arg1) : S8x64x512.Idx → EReal) (m ((c : Thread nD τ).loc main_arg2) : S512x512.Idx → EReal) (m ((c : Thread nD τ).loc main_arg3) : S512.Idx → EReal) (m ((c : Thread nD τ).loc main_arg4) : S512x512.Idx → EReal) (m ((c : Thread nD τ).loc main_arg5) : S512.Idx → EReal) (m ((c : Thread nD τ).loc main_arg6) : S500x512.Idx → EReal) (m ((c : Thread nD τ).loc main_arg7) : S500.Idx → EReal) (((cfg0.win 6).blk t).view.emb j)
  refine blockFn_eq_G (iblk m c 0 t) (iblk m c 1 t) (iblk m c 2 t) (iblk m c 3 t) (iblk m c 4 t) (iblk m c 5 t)
    (m ((c : Thread nD τ).loc main_arg0) : S8x512x512.Idx → EReal) (m ((c : Thread nD τ).loc main_arg1) : S8x64x512.Idx → EReal) (m ((c : Thread nD τ).loc main_arg2) : S512x512.Idx → EReal) (m ((c : Thread nD τ).loc main_arg3) : S512.Idx → EReal) (m ((c : Thread nD τ).loc main_arg4) : S512x512.Idx → EReal) (m ((c : Thread nD τ).loc main_arg5) : S512.Idx → EReal) (m ((c : Thread nD τ).loc main_arg6) : S500x512.Idx → EReal) (m ((c : Thread nD τ).loc main_arg7) : S500.Idx → EReal)
    ((cfg0.win 6).xinj (grid0.coords t) j) (((cfg0.win 6).blk t).view.emb j) ?hu ?hv ?h0 ?h1 ?h2 ?h3 ?h4 ?h5
  case hu => show win0_6.index t (2 : Fin 4) * 64 + 1 * (j 2).val = (j 2).val; omega
  case hv => show win0_6.index t (3 : Fin 4) * 500 + 1 * (j 3).val = (j 3).val; omega
  case h0 =>
    intro e
    have hidx : ((cfg0.win 0).blk t).view.emb (ix3 (0 : Fin 1) ((cfg0.win 6).xinj (grid0.coords t) j 1) e)
        = ix3 ((((cfg0.win 6).blk t).view.emb j) 0) ((((cfg0.win 6).blk t).view.emb j) 1) e :=
      funext fun a => Fin.ext (by
        match a with
        | ⟨0, _⟩ => show win0_0.index t (0 : Fin 3) * 1 + 1 * 0 = win0_6.index t (0 : Fin 4) * 1 + 1 * (j 0).val; omega
        | ⟨1, _⟩ => show win0_0.index t (1 : Fin 3) * 64 + 1 * (j 1).val = win0_6.index t (1 : Fin 4) * 64 + 1 * (j 1).val; omega
        | ⟨2, _⟩ => show win0_0.index t (2 : Fin 3) * 512 + 1 * e.val = e.val; omega)
    show (V m c main_v10 : S8x512x512.Idx → EReal) (((cfg0.win 0).blk t).view.emb (ix3 (0 : Fin 1) ((cfg0.win 6).xinj (grid0.coords t) j 1) e)) = _
    rw [hidx]
    exact V_enc m c _ _ e
  case h1 =>
    intro e
    have hidx : ((cfg0.win 1).blk t).view.emb (ix3 (0 : Fin 1) ((cfg0.win 6).xinj (grid0.coords t) j 2) e)
        = ix3 ((((cfg0.win 6).blk t).view.emb j) 0) ((cfg0.win 6).xinj (grid0.coords t) j 2) e :=
      funext fun a => Fin.ext (by
        match a with
        | ⟨0, _⟩ => show win0_1.index t (0 : Fin 3) * 1 + 1 * 0 = win0_6.index t (0 : Fin 4) * 1 + 1 * (j 0).val; omega
        | ⟨1, _⟩ => show win0_1.index t (1 : Fin 3) * 64 + 1 * (j 2).val = (j 2).val; omega
        | ⟨2, _⟩ => show win0_1.index t (2 : Fin 3) * 512 + 1 * e.val = e.val; omega)
    show (V m c main_v9 : S8x64x512.Idx → EReal) (((cfg0.win 1).blk t).view.emb (ix3 (0 : Fin 1) ((cfg0.win 6).xinj (grid0.coords t) j 2) e)) = _
    rw [hidx]
    exact V_dec m c _ _ e
  case h2 =>
    intro e e'
    have hidx : ((cfg0.win 2).blk t).view.emb (ix2 e e') = ix2 e e' :=
      funext fun a => Fin.ext (by
        match a with
        | ⟨0, _⟩ => show win0_2.index t (0 : Fin 2) * 512 + 1 * e.val = e.val; omega
        | ⟨1, _⟩ => show win0_2.index t (1 : Fin 2) * 512 + 1 * e'.val = e'.val; omega)
    show (V m c main_v12 : S512x512.Idx → EReal) (((cfg0.win 2).blk t).view.emb (ix2 e e')) = _
    rw [hidx]
    exact V_encW m c e e'
  case h3 =>
    intro e
    have hidx : ((cfg0.win 3).blk t).view.emb (ix2 (0 : Fin 1) e) = ix2 (0 : Fin 1) e :=
      funext fun a => Fin.ext (by
        match a with
        | ⟨0, _⟩ => show win0_3.index t (0 : Fin 2) * 1 + 1 * 0 = 0; omega
        | ⟨1, _⟩ => show win0_3.index t (1 : Fin 2) * 512 + 1 * e.val = e.val; omega)
    show (V m c main_v15 : S1x512.Idx → EReal) (((cfg0.win 3).blk t).view.emb (ix2 (0 : Fin 1) e)) = _
    rw [hidx]
    exact V_encb m c 0 e
  case h4 =>
    intro e w
    have hidx : ((cfg0.win 4).blk t).view.emb (ix2 e w) = ix2 e w :=
      funext fun a => Fin.ext (by
        match a with
        | ⟨0, _⟩ => show win0_4.index t (0 : Fin 2) * 512 + 1 * e.val = e.val; omega
        | ⟨1, _⟩ => show win0_4.index t (1 : Fin 2) * 500 + 1 * w.val = w.val; omega)
    show (V m c main_v14 : S512x500.Idx → EReal) (((cfg0.win 4).blk t).view.emb (ix2 e w)) = _
    rw [hidx]
    exact V_outW m c e w
  case h5 =>
    intro w
    have hidx : ((cfg0.win 5).blk t).view.emb (ix2 (0 : Fin 1) w) = ix2 (0 : Fin 1) w :=
      funext fun a => Fin.ext (by
        match a with
        | ⟨0, _⟩ => show win0_5.index t (0 : Fin 2) * 1 + 1 * 0 = 0; omega
        | ⟨1, _⟩ => show win0_5.index t (1 : Fin 2) * 500 + 1 * w.val = w.val; omega)
    show (V m c main_v16 : S1x500.Idx → EReal) (((cfg0.win 5).blk t).view.emb (ix2 (0 : Fin 1) w)) = _
    rw [hidx]
    exact V_outb m c 0 w

/-! ## The blocks tile the array -/

/-- An index of the array is in point t's block iff each coordinate is in the block's range on its axis. -/
theorem mem_blk (t : Fin cfg0.N) (i : S8x512x64x500.Idx) :
    i ∈ ((cfg0.win 6).blk t).view.set ↔ ∀ a : Fin 4, win0_6.index t a * S1x64x64x500.size a ≤ (i a).val
      ∧ (i a).val < win0_6.index t a * S1x64x64x500.size a + S1x64x64x500.size a := by
  show i ∈ ((View.whole main_v17).slice (win0_6.rect t)).set ↔ _
  rw [View.set_slice_whole, Rect.mem_set_unit]
  exact Iff.rfl

/-- Every index of the result array lies in the block of the point (n, t / 64). -/
theorem cover (i : S8x512x64x500.Idx) :
    ∃ t : Fin cfg0.N, (cfg0.win 6).flush t = true ∧ i ∈ ((cfg0.win 6).blk t).view.set := by
  have hi0 : (i 0).val < 8 := (i 0).isLt
  have hi1 : (i 1).val < 512 := (i 1).isLt
  have hi2 : (i 2).val < 64 := (i 2).isLt
  have hi3 : (i 3).val < 500 := (i 3).isLt
  obtain ⟨t, ht⟩ := idx_onto ⟨(i 0).val, hi0⟩ ⟨(i 1).val / 64, by omega⟩
  have q0 : win0_6.index t (0 : Fin 4) = (i 0).val := congrFun ht 0
  have q1 : win0_6.index t (1 : Fin 4) = (i 1).val / 64 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 64 ≤ (i 1).val ∧ (i 1).val < win0_6.index t (1 : Fin 4) * 64 + 64; omega
  | ⟨2, _⟩ => show win0_6.index t (2 : Fin 4) * 64 ≤ (i 2).val ∧ (i 2).val < win0_6.index t (2 : Fin 4) * 64 + 64; omega
  | ⟨3, _⟩ => show win0_6.index t (3 : Fin 4) * 500 ≤ (i 3).val ∧ (i 3).val < win0_6.index t (3 : Fin 4) * 500 + 500; omega

/-! ## The array after the run, and the run -/

/-- THE RESULT ARRAY after the run is the joiner's function of the argument arrays. -/
theorem final (c : Dev nD) : (dats m 0 c).arrAt 6 cfg0.N = Garr m c :=
  (dats m 0 c).arrAt_eq_of_cover 6 (Garr m c) (fun t _ => flushed_eq m c t) cover

/-- The kernel program's run: it terminates with the result array at the joiner's function and the arguments unchanged. -/
theorem run : θ_run defs (onTc (τ := τ) (main (F := Ideal))) ⟨m, fun _ => 0, ρ⟩ fun r => ∀ c : Dev nD,
      r.2.mem ((c : Thread nD τ).loc main_v17) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.JoinerArray

end
-- ==== Proof.lean ====
/-
  The joiner kernel against its reference, on the extended reals.

  Both programs compute, from encoder states x [8, 512, 512], decoder states y [8, 64, 512], two projections
  (We, be), (Wd, bd) into 512 joint coordinates and an output layer (Wo, bo) onto 500 vocabulary entries,

    out(n, t, u, v) = (Σ_j tanh(((Σ_e x(n, t, e) · We(j, e)) + be(j)) + ((Σ_d y(n, u, d) · Wd(j, d)) + bd(j))) · Wo(v, j)) + bo(v)

  (Proof/JoinerSpec.lean). The reference forms it with three contractions, broadcasts and one tanh over the whole
  arrays (Proof/JoinerHostSide.lean, part 1, over the generated stage-by-stage reading of its run). The kernel program
  forms the decoder projection on the host on merged (n, u) rows, transposes the three weight matrices, and calls a
  kernel on an 8 × 8 grid whose body, in two trips of 32 encoder frames, multiplies the frames by the encoder weights,
  adds the biases and the decoder projection, takes tanh, and multiplies by the output weights; read at the extended
  reals every format change is the identity and every matrix product a plain sum, so each stored piece is the formula
  above on its rows (Proof/JoinerPayload.lean, Proof/JoinerPieces.lean, Proof/JoinerBlock.lean), the staged arrays
  are the arguments re-laid (Proof/JoinerHostSide.lean, part 2), and the 64 blocks tile the result array
  (Proof/JoinerArray.lean). The two results are therefore one function of the arguments, with no appeal to the inputs'
  finiteness: only reading each operation at an index, never a law that fails at an infinity.

  The three frame claims are the generated frame certificates (the reference's: its generated run with the result
  dropped); the idealization rewrote nothing, so there is nothing to preserve.
-/
import proofs.«174205_j79328045957280_2_alg».proof.Defs
import proofs.«174205_j79328045957280_2_alg».proof.Proof.Gen.Kernel
import proofs.«174205_j79328045957280_2_alg».proof.Proof.Gen.Kernel.Skeleton
import proofs.«174205_j79328045957280_2_alg».proof.Proof.Gen.Kernel.Loops
import proofs.«174205_j79328045957280_2_alg».proof.Proof.Gen.Kernel.Launch
import proofs.«174205_j79328045957280_2_alg».proof.Proof.Gen.Kernel.Points
import proofs.«174205_j79328045957280_2_alg».proof.Proof.Gen.Kernel.Frame
import proofs.«174205_j79328045957280_2_alg».proof.Proof.Gen.KernelIdeal
import proofs.«174205_j79328045957280_2_alg».proof.Proof.Gen.KernelIdeal.Skeleton
import proofs.«174205_j79328045957280_2_alg».proof.Proof.Gen.KernelIdeal.Loops
import proofs.«174205_j79328045957280_2_alg».proof.Proof.Gen.KernelIdeal.Launch
import proofs.«174205_j79328045957280_2_alg».proof.Proof.Gen.KernelIdeal.Points
import proofs.«174205_j79328045957280_2_alg».proof.Proof.Gen.KernelIdeal.Frame
import proofs.«174205_j79328045957280_2_alg».proof.Proof.Gen.ReferenceIdeal
import proofs.«174205_j79328045957280_2_alg».proof.Proof.Gen.Pre_finite_inputs
import proofs.«174205_j79328045957280_2_alg».proof.Proof.Gen.KernelIdeal.Value
import proofs.«174205_j79328045957280_2_alg».proof.Proof.Gen.ReferenceIdeal.Run
import proofs.«174205_j79328045957280_2_alg».proof.Proof.Gen.ReferenceIdeal.Read
import proofs.«174205_j79328045957280_2_alg».proof.Proof.JoinerHostSide
import proofs.«174205_j79328045957280_2_alg».proof.Proof.JoinerArray
import Idealize.ShloMosaic.Adequacy
import Idealize.ShloMosaic.Init

noncomputable section

namespace Cert.Proof

open Idealize.ShloMosaic Idealize.SL.Sem

/-- The kernel program as printed runs to the end, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments, both programs end with the result array at the joiner's function
    of the arguments: the kernel program by its blocks, the reference by its stages. -/
theorem algebraic : Cert.algebraic_KernelIdeal_ReferenceIdeal := by
  intro m ρ m' ρ' _ hagree
  refine ⟨fun c => Cert.KernelIdeal.JoinerArray.Garr m c, Cert.KernelIdeal.JoinerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.JoinerRef.ref_eq_G,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
